-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2x1048576 : Shape := ⟨3, ![32, 2, 1048576]⟩
abbrev S_ : Shape := ⟨0, ![]⟩

class Facts : Prop where
  bcast_S_S32x2x1048576 : S_.BroadcastsInDim S32x2x1048576 (![] : Fin 0 → Fin S32x2x1048576.rank)
  reducesTo_S32x2x1048576_S_d0_1_2 : S32x2x1048576.ReducesTo [0, 1, 2] S_
  h_S_ : 0 < S_.numel

variable [Facts]

def fn {F : FTy → Type} [FloatOps F] (main_arg0 : FVec F S32x2x1048576 .f32) : IVec S_ 1 :=
  let main_v0 : FVec F S32x2x1048576 .f32 := Host.absf main_arg0
  let main_cst : FVec F S_ .f32 := constant S_ .f32 0x7F800000#32
  let main_v1 : FVec F S32x2x1048576 .f32 := broadcastInDim S32x2x1048576 ![] bcast_S_S32x2x1048576 main_cst
  let main_v2 : IVec S32x2x1048576 1 := cmpf .olt main_v0 main_v1
  let main_c : IVec S_ 1 := constantI S_ 1 1#1
  let main_v3 : IVec S_ 1 := (fun x v => Host.reduce IntOp.andi x v reducesTo_S32x2x1048576_S_d0_1_2 h_S_) main_v2 main_c
  main_v3
-- ==== Kernel.lean ====
abbrev S32x2x1048576 : Shape := ⟨3, ![32, 2, 1048576]⟩
abbrev S64x1048576 : Shape := ⟨2, ![64, 1048576]⟩
abbrev S64x32768 : Shape := ⟨2, ![64, 32768]⟩

abbrev nBuf : Space → Nat
  | .hbm => 4
  | .vmem => 4
  | .smem => 0
  | _ => 0

abbrev bufTy : (tb : Table) → Fin (tcTables nBuf tb) → BufTy
  | .hbm, ⟨0, _⟩ => ⟨S32x2x1048576, .f32⟩
  | .hbm, ⟨1, _⟩ => ⟨S64x1048576, .f32⟩
  | .hbm, ⟨2, _⟩ => ⟨S64x1048576, .f32⟩
  | .hbm, ⟨3, _⟩ => ⟨S32x2x1048576, .f32⟩
  | .local _ .vmem, ⟨0, _⟩ => ⟨S64x32768, .f32⟩
  | .local _ .vmem, ⟨1, _⟩ => ⟨S64x32768, .f32⟩
  | .local _ .vmem, ⟨2, _⟩ => ⟨S64x32768, .f32⟩
  | .local _ .vmem, ⟨3, _⟩ => ⟨S64x32768, .f32⟩
  | _, _ => ⟨S32x2x1048576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x2x1048576_S64x1048576 : S32x2x1048576.ShapeCasts S64x1048576
  inb_S64x32768_S64x32768_0_0 : ∀ a, (![0, 0] : Fin 2 → Nat) a + S64x32768.size a ≤ S64x32768.size a
  h_S64x32768 : 0 < S64x32768.numel
  shapeCasts_S64x32768_S64x32768 : S64x32768.ShapeCasts S64x32768
  shapeCasts_S64x1048576_S32x2x1048576 : S64x1048576.ShapeCasts S32x2x1048576
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x32768.size a ≤ S64x1048576.size a
  hwx0_0 : ∀ i : grid0.Coords, EltTy.bits .f32 = 32 ∨ (Rect.block (s := S64x1048576) S64x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x32768.size a ≤ S64x1048576.size a
  hwx0_1 : ∀ i : grid0.Coords, EltTy.bits .f32 = 32 ∨ (Rect.block (s := S64x1048576) S64x32768.size (cc0_transform_1 i) (hinb0_1 i)).WholeWords (EltTy.packing .f32)

variable [Facts₀]

abbrev win0_0 : Pipeline.Window sig grid0 :=
  Pipeline.Window.ofSpec (Memref.whole main_v0) S64x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x32768.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where
  halias0_1 : Pipeline.Aliased win0 0 1

variable [Facts]
-- ==== ReferenceIdeal.lean ====
abbrev S32x2x1048576 : Shape := ⟨3, ![32, 2, 1048576]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S32x2x1048576, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S32x2x1048576, .f32⟩
  | .hbm, ⟨5, _⟩ => ⟨S32x2x1048576, .f32⟩
  | .hbm, ⟨6, _⟩ => ⟨S_, .f32⟩
  | .hbm, ⟨7, _⟩ => ⟨S32x2x1048576, .f32⟩
  | .hbm, ⟨8, _⟩ => ⟨S32x2x1048576, .f32⟩
  | _, _ => ⟨S32x2x1048576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩

abbrev nD : Nat := 1
abbrev τ : Topo := Topo.v7x

variable {F : FTy → Type} [FloatOps F]

class Facts₀ : Prop where
  bcast_S_S32x2x1048576 : S_.BroadcastsInDim S32x2x1048576 (![] : Fin 0 → Fin S32x2x1048576.rank)

variable [Facts₀]

class Facts : Prop extends Facts₀ where

variable [Facts]
-- ==== Proof.Clip.lean ====
/-
  The hard clip into [-1/2, 1/2], as one function of an array.

  Both programs compute, at every element x, min(1/2, max(-1/2, x)). The two bounds are the same two
  float words on both sides, so neither is ever evaluated: the clip is stated over the words themselves.
  The function is pointwise, so it commutes with every re-indexing of an array; in particular a reshape,
  then the clip, then the reshape back, is the clip itself.
-/
import Idealize.ShloMosaic.PureOps.Vector
import Idealize.ShloMosaic.Lib.Pipeline.Value

noncomputable section

namespace Cert.Clip

open Idealize.ShloMosaic

variable {F : FTy → Type} [FloatOps F]

/-- One element clipped: the smaller of 1/2 and (the larger of -1/2 and `x`). -/
def clipAt (x : F .f32) : F .f32 :=
  FloatOps.minimumf (FloatOps.ofBits .f32 0x3F000000#32) (FloatOps.maximumf (FloatOps.ofBits .f32 0xBF000000#32) x)

/-- An array clipped element by element. -/
def clipArr {s : Shape} (A : s.Idx → F .f32) : s.Idx → F .f32 := fun i => clipAt (A i)

theorem clipArr_apply {s : Shape} (A : s.Idx → F .f32) (i : s.Idx) : clipArr A i = clipAt (A i) := rfl

/-- Clipping commutes with a reshape: a reshape only renames the index an element is read at. -/
theorem clipArr_shapeCast {s t : Shape} (A : s.Idx → F .f32) (h : s.ShapeCasts t) :
    clipArr (shapeCast t A h) = shapeCast t (clipArr A) h := rfl

/-- Reshape, clip, reshape back: the clip. -/
theorem shapeCast_clipArr_shapeCast {s t : Shape} (A : s.Idx → F .f32) (h : s.ShapeCasts t) (h' : t.ShapeCasts s) :
    shapeCast s (clipArr (shapeCast t A h)) h' = clipArr A := by
  rw [clipArr_shapeCast, shapeCast_shapeCast]

end Cert.Clip

end
-- ==== Proof.Payload.lean ====
/-
  The kernel body's arithmetic: what it stores is the block it loaded, clipped.

  The body loads its whole input block, casts it to its own shape (the identity), takes the larger of -1/2
  and each element, then the smaller of 1/2 and that, and stores the result over its whole output block.
-/
import proofs.«171601_j54365696033606_2_alg».proof.Proof.Gen.KernelIdeal.Skeleton
import proofs.«171601_j54365696033606_2_alg».proof.Proof.Clip

noncomputable section

namespace Cert.KernelIdeal.Body

open Idealize.ShloMosaic Cert.KernelIdeal Cert.KernelIdeal.Gen Cert.Clip

variable {F : FTy → Type} [FloatOps F]

/-- The stored value is the loaded block clipped, element by element. -/
theorem payload_eq (x0 : Vec F S64x32768 .f32) : k0_pay1 x0 = clipArr (F := F) x0 := by
  unfold k0_pay1
  simp only [shapeCast_self]
  rfl

end Cert.KernelIdeal.Body

end
-- ==== Proof.KernelValue.lean ====
/-
  What the kernel's result array holds after its run: the argument array clipped.

  The program reshapes its [32, 2, 1048576] argument to [64, 1048576], runs the clip over a grid of 32 points,
  and reshapes the result back. At point t both windows sit on block (0, t): all 64 rows, columns
  32768·t … 32768·t + 32767. The body leaves in the output block the input block clipped, so what point t writes
  back is block t of ONE whole-array function, the [64, 1048576] input array clipped. Every column c lies in the
  block of point c / 32768, so the 32 blocks cover the output array, which therefore ends as that function.
  The clip is pointwise, so the reshape before it and the reshape after it cancel: the result is the argument
  array clipped.
-/
import proofs.«171601_j54365696033606_2_alg».proof.Proof.Gen.KernelIdeal.Frame
import proofs.«171601_j54365696033606_2_alg».proof.Proof.Payload
import Idealize.ShloMosaic.Lib.Pipeline.Value
import Idealize.ShloMosaic.Lib.StableHlo.Run

set_option maxRecDepth 16384

noncomputable section

namespace Cert.KernelIdeal.ClipValue

open Idealize.ShloMosaic Idealize.ShloMosaic.TcCoe Idealize.SL.Sem
open Idealize.ShloMosaic.Pipeline (Dat Cfg Window)
open Cert.KernelIdeal Cert.KernelIdeal.Gen Cert.Clip

variable {F : FTy → Type} [FloatOps F]
variable (m : (ℓ : Loc nD τ sig) → Buf (Elt F) ℓ) (ρ : Dev nD → PrngReg)

/-! ## The blocks -/

/-- The body's accesses start at the origin of its block. -/
theorem origin : (![0, 0] : Fin 2 → Nat) = fun _ => 0 := funext fun a => by fin_cases a <;> rfl

/-- At point `t` the input's window and the output's window both sit on block (0, t). -/
theorem block_of_point : ∀ t : Fin cfg0.N, win0_0.index t (0 : Fin 2) = 0 ∧ win0_0.index t (1 : Fin 2) = t.val
    ∧ win0_1.index t (0 : Fin 2) = 0 ∧ win0_1.index t (1 : Fin 2) = t.val :=
  (by decide +kernel : ∀ t : Fin grid0.N, _)

/-- What point `t` writes back is block `t` of the input array clipped. -/
theorem written_back (c : Dev nD) (t : Fin cfg0.N) :
    (dats m 0 c).flushed 1 t = ((cfg0.win 1).blk t).view.read (Elt F) (clipArr (F := F) (V m c main_v0)) := by
  show (cfg0.win 1).cut (grid0.coords t) ((dats m 0 c).after 1 t) = _
  rw [after0_1]
  unfold out0_1
  rw [View.canon_unit_zero origin]
  simp only [View.ld_unit_zero (S := S64x32768) origin]
  rw [Body.payload_eq]
  obtain ⟨e0, e1, e2, e3⟩ := block_of_point t
  funext j
  show clipAt (V m c main_v0 (((cfg0.win 0).blk t).view.emb j)) = clipAt (V m c main_v0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 64 + 1 * (j 0).val = win0_1.index t (0 : Fin 2) * 64 + 1 * (j 0).val; omega
    | ⟨1, _⟩ => show win0_0.index t (1 : Fin 2) * 32768 + 1 * (j 1).val = win0_1.index t (1 : Fin 2) * 32768 + 1 * (j 1).val; omega
  rw [h0]

/-- An index of the output array is in point `t`'s block iff each coordinate is in the block's range. -/
theorem mem_block (t : Fin cfg0.N) (i : S64x1048576.Idx) :
    i ∈ ((cfg0.win 1).blk t).view.set ↔ ∀ a : Fin 2, win0_1.index t a * S64x32768.size a ≤ (i a).val ∧ (i a).val < win0_1.index t a * S64x32768.size a + S64x32768.size a := by
  show i ∈ ((View.whole main_v1).slice (win0_1.rect t)).set ↔ _
  rw [View.set_slice_whole, Rect.mem_set_unit]
  exact Iff.rfl

/-- Every index of the output array is in the block of the point its column divided by 32768 names. -/
theorem covered (i : S64x1048576.Idx) :
    ∃ t : Fin cfg0.N, (cfg0.win 1).flush t = true ∧ i ∈ ((cfg0.win 1).blk t).view.set := by
  have hi0 : (i 0).val < 64 := (i 0).isLt
  have hi1 : (i 1).val < 1048576 := (i 1).isLt
  have hN : (i 1).val / 32768 < cfg0.N := by
    show (i 1).val / 32768 < grid0.N
    rw [N_0]; omega
  obtain ⟨-, -, e2, e3⟩ := block_of_point ⟨(i 1).val / 32768, hN⟩
  refine ⟨⟨(i 1).val / 32768, hN⟩, flush0_1 _, ?_⟩
  rw [mem_block]
  intro a
  match a with
  | ⟨0, _⟩ =>
    show win0_1.index ⟨(i 1).val / 32768, hN⟩ (0 : Fin 2) * 64 ≤ (i 0).val ∧ (i 0).val < win0_1.index ⟨(i 1).val / 32768, hN⟩ (0 : Fin 2) * 64 + 64
    omega
  | ⟨1, _⟩ =>
    show win0_1.index ⟨(i 1).val / 32768, hN⟩ (1 : Fin 2) * 32768 ≤ (i 1).val ∧ (i 1).val < win0_1.index ⟨(i 1).val / 32768, hN⟩ (1 : Fin 2) * 32768 + 32768
    have : (⟨(i 1).val / 32768, hN⟩ : Fin cfg0.N).val = (i 1).val / 32768 := rfl
    omega

/-- The output array after the region: the input array clipped. -/
theorem region_result (c : Dev nD) : (dats m 0 c).arrAt 1 cfg0.N = clipArr (F := F) (V m c main_v0) :=
  (dats m 0 c).arrAt_eq_of_cover 1 _ (fun t _ => written_back m c t) covered

/-! ## The host lines around the region -/

/-- The region's input array is the argument reshaped to [64, 1048576]. -/
theorem region_input (c : Dev nD) : (V m c main_v0 : S64x1048576.Idx → F .f32)
    = shapeCast S64x1048576 (m ((c : Thread nD τ).loc main_arg0)) shapeCasts_S32x2x1048576_S64x1048576 := by
  show StableHlo.after hostOps0 (fun b => m (c, b)) (Proc.devRef .tc main_v0) = _
  after_results
  rfl

/-- The program's result, the output array reshaped back, is the argument clipped. -/
theorem result_eq (c : Dev nD) :
    (Pipeline.afterTail₀ cfgs (dats m) 0 (V0 m) [hostOps1] c main_v2 : S32x2x1048576.Idx → F .f32)
      = clipArr (F := F) (m ((c : Thread nD τ).loc main_arg0)) := by
  unfold Pipeline.afterTail₀
  show StableHlo.after hostOps1 _ (Proc.devRef .tc main_v2) = _
  after_results
  show shapeCast S32x2x1048576 (Pipeline.withArrays spec0 c (V0 m c) (fun w => (dats m 0 c).arrAt w cfg0.N)
      (Proc.devRef .tc (Pipeline.arrRef spec0 1))) shapeCasts_S64x1048576_S32x2x1048576 = _
  rw [Pipeline.withArrays_arr spec0 launch0.win.arr_inj c _ _ 1, region_result, region_input]
  exact shapeCast_clipArr_shapeCast (F := F) (s := S32x2x1048576) (t := S64x1048576) _ _ _

/-! ## The run -/

/-- Every weakly fair execution of the program terminates with its result at the argument clipped and its
    argument unchanged: the frame run, with the result array and the argument array read. -/
theorem run : θ_run defs (onTc (τ := τ) (main (F := F))) ⟨m, fun _ => 0, ρ⟩ fun r => ∀ c : Dev nD,
      r.2.mem ((c.tc : Thread nD τ).loc main_v2) = clipArr (F := F) (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.ClipValue

end
-- ==== Proof.RefClip.lean ====
/-
  The reference's result is its argument clipped.

  The reference broadcasts the two bounds to the array's shape and takes, element by element, the larger of
  -1/2 and the argument, then the smaller of 1/2 and that: read at an index, each broadcast is its one
  element, so the result at an index is the argument's element there, clipped.
-/
import proofs.«171601_j54365696033606_2_alg».proof.Proof.Gen.ReferenceIdeal.Read
import proofs.«171601_j54365696033606_2_alg».proof.Proof.Clip

noncomputable section

namespace Cert.ReferenceIdeal.RefValue

open Idealize.ShloMosaic Cert.ReferenceIdeal Cert.ReferenceIdeal.Read Cert.Clip

variable {F : FTy → Type} [FloatOps F]

/-- The last stage of the reference, as a function of the argument array, is the clip. -/
theorem val_eq_clip (x0 : S32x2x1048576.Idx → F .f32) : val_main_v0 (F := F) x0 = clipArr (F := F) x0 := by
  funext i
  rw [val_main_v0_apply, val_main_call0_v4_apply, val_main_call0_v3_apply, val_main_cst_0_apply,
    val_main_call0_v2_apply, val_main_call0_v1_apply, val_main_call0_v0_apply, val_main_cst_apply]
  rfl

end Cert.ReferenceIdeal.RefValue

end
-- ==== Proof.lean ====
/-
  An elementwise hard clip into [-1/2, 1/2], tiled over the last axis, against the whole-array clip.

  The kernel reshapes its [32, 2, 1048576] argument to [64, 1048576], clips it block by block over a grid of 32
  points (block t holds all 64 rows of columns 32768·t … 32768·t + 32767), and reshapes the result back; the
  reference clips the whole argument at once. Both take min(1/2, max(-1/2, x)) at every element, with the same
  two float words for the bounds. The 32 blocks cover the array and each is the same pointwise function of its
  input block, so the kernel's [64, 1048576] array ends as its input clipped; the clip being pointwise, the two
  reshapes cancel. No property of the extended reals is used beyond the two sides being the same term, so the
  finiteness of the input is never opened. The idealization rewrote nothing, so there is nothing to preserve.
-/
import proofs.«171601_j54365696033606_2_alg».proof.Defs
import proofs.«171601_j54365696033606_2_alg».proof.Proof.Gen.Kernel
import proofs.«171601_j54365696033606_2_alg».proof.Proof.Gen.Kernel.Frame
import proofs.«171601_j54365696033606_2_alg».proof.Proof.Gen.KernelIdeal
import proofs.«171601_j54365696033606_2_alg».proof.Proof.Gen.KernelIdeal.Frame
import proofs.«171601_j54365696033606_2_alg».proof.Proof.Gen.ReferenceIdeal
import proofs.«171601_j54365696033606_2_alg».proof.Proof.Gen.ReferenceIdeal.Run
import proofs.«171601_j54365696033606_2_alg».proof.Proof.Gen.ReferenceIdeal.Read
import proofs.«171601_j54365696033606_2_alg».proof.Proof.Gen.Pre_finite_inputs
import proofs.«171601_j54365696033606_2_alg».proof.Proof.KernelValue
import proofs.«171601_j54365696033606_2_alg».proof.Proof.RefClip

noncomputable section

namespace Cert.Proof

open Idealize.ShloMosaic Idealize.SL.Sem

/-- The word-level kernel runs and keeps its argument. -/
theorem frame_kernel : Cert.frame_Kernel := fun m ρ _ => Cert.Kernel.Gen.frame m ρ

/-- The idealized kernel runs and keeps its argument. -/
theorem frame_kernelIdeal : Cert.frame_KernelIdeal := fun m ρ _ => Cert.KernelIdeal.Gen.frame m ρ

/-- The idealized reference runs and keeps its argument: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with their result at the argument clipped, element by element. -/
theorem algebraic : Cert.algebraic_KernelIdeal_ReferenceIdeal := by
  intro m ρ m' ρ' _ hagree
  refine ⟨fun c => Cert.Clip.clipArr (F := Ideal) (m ((c.tc : Thread Cert.KernelIdeal.nD Cert.KernelIdeal.τ).loc Cert.KernelIdeal.main_arg0)),
    Cert.KernelIdeal.ClipValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefValue.val_eq_clip, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
